-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S50000x32 : S_.BroadcastsInDim S50000x32 (![] : Fin 0 → Fin S50000x32.rank)
  reducesTo_S50000x32_S_d0_1 : S50000x32.ReducesTo [0, 1] S_
  bcast_S_S1600000x48 : S_.BroadcastsInDim S1600000x48 (![] : Fin 0 → Fin S1600000x48.rank)
  reducesTo_S1600000x48_S_d0_1 : S1600000x48.ReducesTo [0, 1] S_
  bcast_S_S208x256 : S_.BroadcastsInDim S208x256 (![] : Fin 0 → Fin S208x256.rank)
  reducesTo_S208x256_S_d0_1 : S208x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S208x256 .f32) (main_arg7 : FVec F S256 .f32) (main_arg8 : FVec F S256x64 .f32) (main_arg9 : FVec F S64 .f32) (main_v13 : IVec S_ 1) (main_v16 : IVec S1600000x48 1) : IVec S_ 1 :=
  let main_c_5 : IVec S_ 1 := constantI S_ 1 1#1
  let main_v17 : IVec S_ 1 := (fun x v => Host.reduce IntOp.andi x v reducesTo_S1600000x48_S_d0_1 h_S_) main_v16 main_c_5
  let main_v18 : IVec S_ 1 := andi main_v13 main_v17
  let main_v19 : FVec F S208x256 .f32 := Host.absf main_arg6
  let main_cst_6 : FVec F S_ .f32 := constant S_ .f32 0x7F800000#32
  let main_v20 : FVec F S208x256 .f32 := broadcastInDim S208x256 ![] bcast_S_S208x256 main_cst_6
  let main_v21 : IVec S208x256 1 := cmpf .olt main_v19 main_v20
  let main_c_7 : IVec S_ 1 := constantI S_ 1 1#1
  let main_v22 : IVec S_ 1 := (fun x v => Host.reduce IntOp.andi x v reducesTo_S208x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S50000x64 .f32) (main_arg2 : FVec F S50000x32 .f32) (main_arg3 : IVec S2x1600000 32) (main_arg4 : FVec F S1600000x48 .f32) (main_arg5 : IVec S50000 32) (main_arg6 : FVec F S208x256 .f32) (main_arg7 : FVec F S256 .f32) (main_arg8 : FVec F S256x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S1600000x48 .f32 := Host.absf main_arg4
  let main_cst_4 : FVec F S_ .f32 := constant S_ .f32 0x7F800000#32
  let main_v15 : FVec F S1600000x48 .f32 := broadcastInDim S1600000x48 ![] bcast_S_S1600000x48 main_cst_4
  let main_v16 : IVec S1600000x48 1 := cmpf .olt main_v14 main_v15
  fn_part1 (F := F) main_arg6 main_arg7 main_arg8 main_arg9 main_v13 main_v16
-- ==== Kernel.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S50000x1 : Shape := ⟨2, ![50000, 1]⟩
abbrev S50000x48 : Shape := ⟨2, ![50000, 48]⟩
abbrev S64x256 : Shape := ⟨2, ![64, 256]⟩
abbrev S32x256 : Shape := ⟨2, ![32, 256]⟩
abbrev S48x256 : Shape := ⟨2, ![48, 256]⟩
abbrev S1x256 : Shape := ⟨2, ![1, 256]⟩
abbrev S1x64 : Shape := ⟨2, ![1, 64]⟩
abbrev S2000x64 : Shape := ⟨2, ![2000, 64]⟩
abbrev S2000x48 : Shape := ⟨2, ![2000, 48]⟩
abbrev S2000x32 : Shape := ⟨2, ![2000, 32]⟩
abbrev S2000x256 : Shape := ⟨2, ![2000, 256]⟩

abbrev nBuf : Space → Nat
  | .hbm => 48
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x32, .f32⟩
  | .hbm, ⟨3, _⟩ => ⟨S2x1600000, .i32⟩
  | .hbm, ⟨4, _⟩ => ⟨S1600000x48, .f32⟩
  | .hbm, ⟨5, _⟩ => ⟨S50000, .i32⟩
  | .hbm, ⟨6, _⟩ => ⟨S208x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x48, .f32⟩
  | .hbm, ⟨14, _⟩ => ⟨S1600000x1, .i32⟩
  | .hbm, ⟨15, _⟩ => ⟨S100000x48, .f32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S50000x64, .bf16⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x48, .f32⟩
  | .hbm, ⟨35, _⟩ => ⟨S50000x48, .bf16⟩
  | .hbm, ⟨36, _⟩ => ⟨S64x256, .f32⟩
  | .hbm, ⟨37, _⟩ => ⟨S64x256, .bf16⟩
  | .hbm, ⟨38, _⟩ => ⟨S64x256, .f32⟩
  | .hbm, ⟨39, _⟩ => ⟨S64x256, .bf16⟩
  | .hbm, ⟨40, _⟩ => ⟨S32x256, .f32⟩
  | .hbm, ⟨41, _⟩ => ⟨S32x256, .bf16⟩
  | .hbm, ⟨42, _⟩ => ⟨S48x256, .f32⟩
  | .hbm, ⟨43, _⟩ => ⟨S48x256, .bf16⟩
  | .hbm, ⟨44, _⟩ => ⟨S256x64, .bf16⟩
  | .hbm, ⟨45, _⟩ => ⟨S1x256, .f32⟩
  | .hbm, ⟨46, _⟩ => ⟨S1x64, .f32⟩
  | .hbm, ⟨47, _⟩ => ⟨S50000x64, .f32⟩
  | .local _ .vmem, ⟨0, _⟩ => ⟨S2000x64, .bf16⟩
  | .local _ .vmem, ⟨1, _⟩ => ⟨S2000x64, .bf16⟩
  | .local _ .vmem, ⟨2, _⟩ => ⟨S2000x48, .bf16⟩
  | .local _ .vmem, ⟨3, _⟩ => ⟨S2000x48, .bf16⟩
  | .local _ .vmem, ⟨4, _⟩ => ⟨S2000x64, .f32⟩
  | .local _ .vmem, ⟨5, _⟩ => ⟨S2000x64, .f32⟩
  | .local _ .vmem, ⟨6, _⟩ => ⟨S2000x32, .f32⟩
  | .local _ .vmem, ⟨7, _⟩ => ⟨S2000x32, .f32⟩
  | .local _ .vmem, ⟨8, _⟩ => ⟨S64x256, .bf16⟩
  | .local _ .vmem, ⟨9, _⟩ => ⟨S64x256, .bf16⟩
  | .local _ .vmem, ⟨10, _⟩ => ⟨S32x256, .bf16⟩
  | .local _ .vmem, ⟨11, _⟩ => ⟨S48x256, .bf16⟩
  | .local _ .vmem, ⟨12, _⟩ => ⟨S1x256, .f32⟩
  | .local _ .vmem, ⟨13, _⟩ => ⟨S256x64, .bf16⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  slices_S208x256_S64x256_0_0 : S208x256.Slices ![0, 0] S64x256
  slices_S208x256_S64x256_64_0 : S208x256.Slices ![64, 0] S64x256
  slices_S208x256_S32x256_128_0 : S208x256.Slices ![128, 0] S32x256
  slices_S208x256_S48x256_160_0 : S208x256.Slices ![160, 0] S48x256
  shapeCasts_S256_S1x256 : S256.ShapeCasts S1x256
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  inb_S2000x32_S2000x32_0_0 : ∀ a, (![0, 0] : Fin 2 → Nat) a + S2000x32.size a ≤ S2000x32.size a
  h_S2000x32 : 0 < S2000x32.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S48x256_S48x256_0_0 : ∀ a, (![0, 0] : Fin 2 → Nat) a + S48x256.size a ≤ S48x256.size a
  h_S48x256 : 0 < S48x256.numel
  shapeCasts_S48x256_S48x256 : S48x256.ShapeCasts S48x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000x48_S1600000x1_S1600000x48_1_0_0_1_wf : ScatterDims.WF S100000x48 S1600000x1 S1600000x48 [1] [0] [0] 1
  gather_S100000x64_S50000x1_S50000x64_1_0_n_n_0_1_164_wf : GatherDims.WF S100000x64 S50000x1 S50000x64 [1] [0] [] [0] [] 1 ![1, 64]
  gather_S100000x48_S50000x1_S50000x48_1_0_n_n_0_1_148_wf : GatherDims.WF S100000x48 S50000x1 S50000x48 [1] [0] [] [0] [] 1 ![1, 48]
  dot_S2000x64_S64x256_S2000x256_1_0_0_1_n_n_wf : DotDims.WF S2000x64 S64x256 S2000x256 [1] [0] [0] [1] [] []
  dot_S2000x32_S32x256_S2000x256_1_0_0_1_n_n_wf : DotDims.WF S2000x32 S32x256 S2000x256 [1] [0] [0] [1] [] []
  dot_S2000x48_S48x256_S2000x256_1_0_0_1_n_n_wf : DotDims.WF S2000x48 S48x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .bf16 = 32 ∨ (Rect.block (s := S50000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x48.size a ≤ S50000x48.size a
  hwx0_1 : ∀ i : grid0.Coords, EltTy.bits .bf16 = 32 ∨ (Rect.block (s := S50000x48) S2000x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S50000x32.size a
  hwx0_3 : ∀ i : grid0.Coords, EltTy.bits .f32 = 32 ∨ (Rect.block (s := S50000x32) S2000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .bf16 = 32 ∨ (Rect.block (s := S64x256) S64x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .bf16 = 32 ∨ (Rect.block (s := S32x256) S32x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x256.size a ≤ S48x256.size a
  hwx0_7 : ∀ i : grid0.Coords, EltTy.bits .bf16 = 32 ∨ (Rect.block (s := S48x256) S48x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .bf16 = 32 ∨ (Rect.block (s := S256x64) S256x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S50000x64.size a
  hwx0_11 : ∀ i : grid0.Coords, EltTy.bits .f32 = 32 ∨ (Rect.block (s := S50000x64) S2000x64.size (cc0_transform_11 i) (hinb0_11 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000x48_S50000x1_S50000x48_1_0_n_n_0_1_148 : GatherDims S100000x48 S50000x1 S50000x48 where
  offsetDims := [1]
  collapsedSliceDims := [0]
  operandBatchingDims := []
  startIndicesBatchingDims := []
  startIndexMap := [0]
  indexVectorDim := 1
  sliceSizes := ![1, 48]
  wf := gather_S100000x48_S50000x1_S50000x48_1_0_n_n_0_1_148_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x48_S48x256_S2000x256_1_0_0_1_n_n : DotDims S2000x48 S48x256 S2000x256 where
  lhsContracting := [1]
  rhsContracting := [0]
  lhsNonContracting := [0]
  rhsNonContracting := [1]
  lhsBatch := []
  rhsBatch := []
  wf := dot_S2000x48_S48x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v12) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S48x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S2000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S50000x1 : Shape := ⟨2, ![50000, 1]⟩
abbrev S50000x48 : Shape := ⟨2, ![50000, 48]⟩
abbrev S50000x208 : Shape := ⟨2, ![50000, 208]⟩
abbrev S50000x256 : Shape := ⟨2, ![50000, 256]⟩
abbrev S1x256 : Shape := ⟨2, ![1, 256]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x32, .f32⟩
  | .hbm, ⟨3, _⟩ => ⟨S2x1600000, .i32⟩
  | .hbm, ⟨4, _⟩ => ⟨S1600000x48, .f32⟩
  | .hbm, ⟨5, _⟩ => ⟨S50000, .i32⟩
  | .hbm, ⟨6, _⟩ => ⟨S208x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x48, .f32⟩
  | .hbm, ⟨14, _⟩ => ⟨S1600000x1, .i32⟩
  | .hbm, ⟨15, _⟩ => ⟨S100000x48, .f32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x48, .f32⟩
  | .hbm, ⟨34, _⟩ => ⟨S50000x208, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x32_S50000x48_S50000x208_d1 : Shape.Concatenates [S50000x64, S50000x64, S50000x32, S50000x48] S50000x208 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S100000x48_S1600000x1_S1600000x48_1_0_0_1_wf : ScatterDims.WF S100000x48 S1600000x1 S1600000x48 [1] [0] [0] 1
  gather_S100000x64_S50000x1_S50000x64_1_0_n_n_0_1_164_wf : GatherDims.WF S100000x64 S50000x1 S50000x64 [1] [0] [] [0] [] 1 ![1, 64]
  gather_S100000x48_S50000x1_S50000x48_1_0_n_n_0_1_148_wf : GatherDims.WF S100000x48 S50000x1 S50000x48 [1] [0] [] [0] [] 1 ![1, 48]
  dot_S50000x208_S208x256_S50000x256_1_0_0_1_n_n_wf : DotDims.WF S50000x208 S208x256 S50000x256 [1] [0] [0] [1] [] []
  dot_S50000x256_S256x64_S50000x64_1_0_0_1_n_n_wf : DotDims.WF S50000x256 S256x64 S50000x64 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000x48_S50000x1_S50000x48_1_0_n_n_0_1_148 : GatherDims S100000x48 S50000x1 S50000x48 where
  offsetDims := [1]
  collapsedSliceDims := [0]
  operandBatchingDims := []
  startIndicesBatchingDims := []
  startIndexMap := [0]
  indexVectorDim := 1
  sliceSizes := ![1, 48]
  wf := gather_S100000x48_S50000x1_S50000x48_1_0_n_n_0_1_148_wf
def dot_S50000x208_S208x256_S50000x256_1_0_0_1_n_n : DotDims S50000x208 S208x256 S50000x256 where
  lhsContracting := [1]
  rhsContracting := [0]
  lhsNonContracting := [0]
  rhsNonContracting := [1]
  lhsBatch := []
  rhsBatch := []
  wf := dot_S50000x208_S208x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelEntry.lean ====
/-
  What the region finds in the arrays its windows stage.

  Before the region the host program writes eleven arrays: the gathered rows of x and of the scatter-added edge
  features (each changed to a narrower float format, which over the extended reals changes nothing), the four
  stretches of rows 0–63, 64–127, 128–159 and 160–207 of W1, W2, and the two biases recast as one-row matrices. Each is
  read off the host operations as a term of the argument arrays; the weight pieces and the biases are then read entry by
  entry, while the two gathers stay unopened.
-/
import proofs.«112574_j50242527429374_2_alg».proof.Proof.Gen.KernelIdeal.Frame
import Idealize.ShloMosaic.Lib.StableHlo.Run
import Idealize.ShloMosaic.Lib.ValueLayout
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays as terms of the arguments -/

/-- The gathered rows of x: the rows of x the agents' node indices name (a negative index counted from the end). -/
theorem V_gx (c : Dev nD) : (V m c main_v12 : S50000x64.Idx → Elt Ideal .bf16)
    = (truncf (F := Ideal) .bf16 (Host.gather gather_S100000x64_S50000x1_S50000x64_1_0_n_n_0_1_164 (m ((c : Thread nD τ).loc main_arg0) : S100000x64.Idx → Elt Ideal .f32) (broadcastInDim S50000x1 ![0] bcast_S50000_S50000x1_0 (select (cmpi .slt (m ((c : Thread nD τ).loc main_arg5) : S50000.Idx → Elt Ideal .i32) (broadcastInDim S50000 ![] bcast_S_S50000 (constantI S_ 32 0#32))) (addi (m ((c : Thread nD τ).loc main_arg5) : S50000.Idx → Elt Ideal .i32) (broadcastInDim S50000 ![] bcast_S_S50000 (constantI S_ 32 100000#32))) (m ((c : Thread nD τ).loc main_arg5) : S50000.Idx → Elt Ideal .i32)))) bitsLt_bf16_f32 : S50000x64.Idx → Elt Ideal .bf16) := by
  dsimp only [Gen.V, Gen.hostOps0]; after_results_simp <;> rfl

/-- The gathered rows of the edge features scatter-added by source node. -/
theorem V_ga (c : Dev nD) : (V m c main_v20 : S50000x48.Idx → Elt Ideal .bf16)
    = (truncf (F := Ideal) .bf16 (Host.gather gather_S100000x48_S50000x1_S50000x48_1_0_n_n_0_1_148 (Host.scatterAdd (F := Ideal) scatter_S100000x48_S1600000x1_S1600000x48_1_0_0_1 (broadcastInDim S100000x48 ![] bcast_S_S100000x48 (constant (F := Ideal) S_ .f32 0x00000000#32)) (broadcastInDim S1600000x1 ![0] bcast_S1600000_S1600000x1_0 (shapeCast _ (extractStridedSlice S1x1600000 ![0, 0] (m ((c : Thread nD τ).loc main_arg3) : S2x1600000.Idx → Elt Ideal .i32) slices_S2x1600000_S1x1600000_0_0) shapeCasts_S1x1600000_S1600000)) (m ((c : Thread nD τ).loc main_arg4) : S1600000x48.Idx → Elt Ideal .f32)) (broadcastInDim S50000x1 ![0] bcast_S50000_S50000x1_0 (select (cmpi .slt (m ((c : Thread nD τ).loc main_arg5) : S50000.Idx → Elt Ideal .i32) (broadcastInDim S50000 ![] bcast_S_S50000 (constantI S_ 32 0#32))) (addi (m ((c : Thread nD τ).loc main_arg5) : S50000.Idx → Elt Ideal .i32) (broadcastInDim S50000 ![] bcast_S_S50000 (constantI S_ 32 100000#32))) (m ((c : Thread nD τ).loc main_arg5) : S50000.Idx → Elt Ideal .i32)))) bitsLt_bf16_f32 : S50000x48.Idx → Elt Ideal .bf16) := by
  dsimp only [Gen.V, Gen.hostOps0]; after_results_simp <;> rfl

/-- Rows 0–63 of W1. -/
theorem V_w1x (c : Dev nD) : (V m c main_v22 : S64x256.Idx → Elt Ideal .bf16)
    = (truncf (F := Ideal) .bf16 (extractStridedSlice S64x256 ![0, 0] (m ((c : Thread nD τ).loc main_arg6) : S208x256.Idx → Elt Ideal .f32) slices_S208x256_S64x256_0_0) bitsLt_bf16_f32 : S64x256.Idx → Elt Ideal .bf16) := by
  dsimp only [Gen.V, Gen.hostOps0]; after_results_simp <;> rfl

/-- Rows 64–127 of W1. -/
theorem V_w1l (c : Dev nD) : (V m c main_v24 : S64x256.Idx → Elt Ideal .bf16)
    = (truncf (F := Ideal) .bf16 (extractStridedSlice S64x256 ![64, 0] (m ((c : Thread nD τ).loc main_arg6) : S208x256.Idx → Elt Ideal .f32) slices_S208x256_S64x256_64_0) bitsLt_bf16_f32 : S64x256.Idx → Elt Ideal .bf16) := by
  dsimp only [Gen.V, Gen.hostOps0]; after_results_simp <;> rfl

/-- Rows 128–159 of W1. -/
theorem V_w1z (c : Dev nD) : (V m c main_v26 : S32x256.Idx → Elt Ideal .bf16)
    = (truncf (F := Ideal) .bf16 (extractStridedSlice S32x256 ![128, 0] (m ((c : Thread nD τ).loc main_arg6) : S208x256.Idx → Elt Ideal .f32) slices_S208x256_S32x256_128_0) bitsLt_bf16_f32 : S32x256.Idx → Elt Ideal .bf16) := by
  dsimp only [Gen.V, Gen.hostOps0]; after_results_simp <;> rfl

/-- Rows 160–207 of W1. -/
theorem V_w1a (c : Dev nD) : (V m c main_v28 : S48x256.Idx → Elt Ideal .bf16)
    = (truncf (F := Ideal) .bf16 (extractStridedSlice S48x256 ![160, 0] (m ((c : Thread nD τ).loc main_arg6) : S208x256.Idx → Elt Ideal .f32) slices_S208x256_S48x256_160_0) bitsLt_bf16_f32 : S48x256.Idx → Elt Ideal .bf16) := by
  dsimp only [Gen.V, Gen.hostOps0]; after_results_simp <;> rfl

/-- W2. -/
theorem V_w2 (c : Dev nD) : (V m c main_v29 : S256x64.Idx → Elt Ideal .bf16)
    = (truncf (F := Ideal) .bf16 (m ((c : Thread nD τ).loc main_arg8) : S256x64.Idx → Elt Ideal .f32) bitsLt_bf16_f32 : S256x64.Idx → Elt Ideal .bf16) := by
  dsimp only [Gen.V, Gen.hostOps0]; after_results_simp <;> rfl

/-- The first bias as a one-row matrix. -/
theorem V_b1 (c : Dev nD) : (V m c main_v30 : S1x256.Idx → Elt Ideal .f32)
    = (shapeCast S1x256 (m ((c : Thread nD τ).loc main_arg7) : S256.Idx → Elt Ideal .f32) shapeCasts_S256_S1x256 : S1x256.Idx → Elt Ideal .f32) := by
  dsimp only [Gen.V, Gen.hostOps0]; after_results_simp <;> rfl

/-- The second bias as a one-row matrix. -/
theorem V_b2 (c : Dev nD) : (V m c main_v31 : S1x64.Idx → Elt Ideal .f32)
    = (shapeCast S1x64 (m ((c : Thread nD τ).loc main_arg9) : S64.Idx → Elt Ideal .f32) shapeCasts_S64_S1x64 : S1x64.Idx → Elt Ideal .f32) := by
  dsimp only [Gen.V, Gen.hostOps0]; after_results_simp <;> rfl

/-! ## The weight pieces and the biases entry by entry -/

/-- Entry (k, j) of the first weight piece is W1[k, j]. -/
theorem w1x_apply (c : Dev nD) (k : Fin 64) (j : Fin 256) :
    (V m c main_v22 : S64x256.Idx → Elt Ideal .bf16) (ix2 k j)
      = (m ((c : Thread nD τ).loc main_arg6) : S208x256.Idx → Elt Ideal .f32) (ix2 (⟨k.val, by have := k.isLt; omega⟩ : Fin 208) j) := by
  rw [V_w1x]
  exact slice2_axis0_apply 0 (m ((c : Thread nD τ).loc main_arg6) : S208x256.Idx → Elt Ideal .f32) slices_S208x256_S64x256_0_0 k j _ (by show k.val = 0 + k.val; omega)

/-- Entry (k, j) of the second weight piece is W1[64 + k, j]. -/
theorem w1l_apply (c : Dev nD) (k : Fin 64) (j : Fin 256) :
    (V m c main_v24 : S64x256.Idx → Elt Ideal .bf16) (ix2 k j)
      = (m ((c : Thread nD τ).loc main_arg6) : S208x256.Idx → Elt Ideal .f32) (ix2 (⟨64 + k.val, by have := k.isLt; omega⟩ : Fin 208) j) := by
  rw [V_w1l]
  exact slice2_axis0_apply 64 (m ((c : Thread nD τ).loc main_arg6) : S208x256.Idx → Elt Ideal .f32) slices_S208x256_S64x256_64_0 k j _ (by show 64 + k.val = 64 + k.val; omega)

/-- Entry (k, j) of the third weight piece is W1[128 + k, j]. -/
theorem w1z_apply (c : Dev nD) (k : Fin 32) (j : Fin 256) :
    (V m c main_v26 : S32x256.Idx → Elt Ideal .bf16) (ix2 k j)
      = (m ((c : Thread nD τ).loc main_arg6) : S208x256.Idx → Elt Ideal .f32) (ix2 (⟨64 + 64 + k.val, by have := k.isLt; omega⟩ : Fin 208) j) := by
  rw [V_w1z]
  exact slice2_axis0_apply 128 (m ((c : Thread nD τ).loc main_arg6) : S208x256.Idx → Elt Ideal .f32) slices_S208x256_S32x256_128_0 k j _ (by show 64 + 64 + k.val = 128 + k.val; omega)

/-- Entry (k, j) of the fourth weight piece is W1[160 + k, j]. -/
theorem w1a_apply (c : Dev nD) (k : Fin 48) (j : Fin 256) :
    (V m c main_v28 : S48x256.Idx → Elt Ideal .bf16) (ix2 k j)
      = (m ((c : Thread nD τ).loc main_arg6) : S208x256.Idx → Elt Ideal .f32) (ix2 (⟨64 + 64 + 32 + k.val, by have := k.isLt; omega⟩ : Fin 208) j) := by
  rw [V_w1a]
  exact slice2_axis0_apply 160 (m ((c : Thread nD τ).loc main_arg6) : S208x256.Idx → Elt Ideal .f32) slices_S208x256_S48x256_160_0 k j _ (by show 64 + 64 + 32 + k.val = 160 + k.val; omega)

/-- The staged W2 is W2. -/
theorem w2_apply (c : Dev nD) (j : Fin 256) (q : Fin 64) :
    (V m c main_v29 : S256x64.Idx → Elt Ideal .bf16) (ix2 j q) = (m ((c : Thread nD τ).loc main_arg8) : S256x64.Idx → Elt Ideal .f32) (ix2 j q) := by
  rw [V_w2]; rfl

/-- Lane j of the first bias row is b1[j]. -/
theorem b1_apply (c : Dev nD) (j : Fin 256) :
    (V m c main_v30 : S1x256.Idx → Elt Ideal .f32) (ix2 (0 : Fin 1) j) = (m ((c : Thread nD τ).loc main_arg7) : S256.Idx → Elt Ideal .f32) (ix1 j) := by
  rw [V_b1]
  exact shapeCast_a_1a_apply (m ((c : Thread nD τ).loc main_arg7) : S256.Idx → Elt Ideal .f32) shapeCasts_S256_S1x256 0 j

/-- Lane q of the second bias row is b2[q]. -/
theorem b2_apply (c : Dev nD) (q : Fin 64) :
    (V m c main_v31 : S1x64.Idx → Elt Ideal .f32) (ix2 (0 : Fin 1) q) = (m ((c : Thread nD τ).loc main_arg9) : S64.Idx → Elt Ideal .f32) (ix1 q) := by
  rw [V_b2]
  exact shapeCast_a_1a_apply (m ((c : Thread nD τ).loc main_arg9) : S64.Idx → Elt Ideal .f32) shapeCasts_S64_S1x64 0 q

end Cert.KernelIdeal.Entry

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.MlpSpec.lean ====
/-
  The two-layer perceptron on a row made of four feature groups, over the extended reals.

  A row of 208 features is given as four groups of 64, 64, 32 and 48 features (`xg`, `xl`, `z`, `ag`: arrays of R
  rows). With weights W1 [208, 256], b1 [256], W2 [256, 64], b2 [64]:
    hidden r j = max (Σ_k xg[r,k]·W1[k,j] + Σ_k xl[r,k]·W1[64+k,j] + Σ_k z[r,k]·W1[128+k,j] + Σ_k ag[r,k]·W1[160+k,j] + b1[j]) 0
    out    r c = Σ_j hidden r j · W2[j,c] + b2[c]
  The first layer is written as the four partial products added in the order of the groups; by cutting a sum over the
  208 features into its four stretches this is the product of the joined row with the whole of W1. Every entry of
  `out` depends on row r of each feature group only, so the formula read on a block of rows is the formula read on
  the whole arrays at the rows the block holds.
-/
import Idealize.ShloMosaic.PureOps.Ideal
import Idealize.ShloMosaic.Lib.ValueIdx

noncomputable section

namespace Cert.Mlp

open Idealize.ShloMosaic Idealize.ShloMosaic.ValueIdx

/-- Hidden unit `j` of row `r`: the four groups' partial products with their rows of W1, added in the groups' order,
    plus the bias, cut below at zero. -/
def hidden {R : Nat} (xg xl : (⟨2, ![R, 64]⟩ : Shape).Idx → EReal) (z : (⟨2, ![R, 32]⟩ : Shape).Idx → EReal)
    (ag : (⟨2, ![R, 48]⟩ : Shape).Idx → EReal) (W1 : (⟨2, ![208, 256]⟩ : Shape).Idx → EReal)
    (b1 : (⟨1, ![256]⟩ : Shape).Idx → EReal) (r : Fin R) (j : Fin 256) : EReal :=
  max ((∑ k : Fin 64, xg (ix2 r k) * W1 (ix2 (⟨k.val, by have := k.isLt; omega⟩ : Fin 208) j))
      + (∑ k : Fin 64, xl (ix2 r k) * W1 (ix2 (⟨64 + k.val, by have := k.isLt; omega⟩ : Fin 208) j))
      + (∑ k : Fin 32, z (ix2 r k) * W1 (ix2 (⟨64 + 64 + k.val, by have := k.isLt; omega⟩ : Fin 208) j))
      + (∑ k : Fin 48, ag (ix2 r k) * W1 (ix2 (⟨64 + 64 + 32 + k.val, by have := k.isLt; omega⟩ : Fin 208) j))
      + b1 (ix1 j)) 0

/-- Entry (r, c) of the result: the hidden row times W2, plus the second bias. -/
def outAt {R : Nat} (xg xl : (⟨2, ![R, 64]⟩ : Shape).Idx → EReal) (z : (⟨2, ![R, 32]⟩ : Shape).Idx → EReal)
    (ag : (⟨2, ![R, 48]⟩ : Shape).Idx → EReal) (W1 : (⟨2, ![208, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (r : Fin R) (c : Fin 64) : EReal :=
  (∑ j : Fin 256, hidden xg xl z ag W1 b1 r j * W2 (ix2 j c)) + b2 (ix1 c)

/-- The whole result array [R, 64]. -/
def out {R : Nat} (xg xl : (⟨2, ![R, 64]⟩ : Shape).Idx → EReal) (z : (⟨2, ![R, 32]⟩ : Shape).Idx → EReal)
    (ag : (⟨2, ![R, 48]⟩ : Shape).Idx → EReal) (W1 : (⟨2, ![208, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![R, 64]⟩ : Shape).Idx → EReal :=
  fun i => outAt xg xl z ag W1 b1 W2 b2 (i 0) (i 1)

theorem out_apply {R : Nat} (xg xl : (⟨2, ![R, 64]⟩ : Shape).Idx → EReal) (z : (⟨2, ![R, 32]⟩ : Shape).Idx → EReal)
    (ag : (⟨2, ![R, 48]⟩ : Shape).Idx → EReal) (W1 : (⟨2, ![208, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (r : Fin R) (c : Fin 64) :
    out xg xl z ag W1 b1 W2 b2 (ix2 r c) = outAt xg xl z ag W1 b1 W2 b2 r c := rfl

/-- An entry of the result reads row `r` of each feature group and nothing else of them: feature arrays that agree on
    the rows read (row `r` of one family, row `r'` of the other) give the same entry. -/
theorem outAt_congr {R R' : Nat} {xg xl : (⟨2, ![R, 64]⟩ : Shape).Idx → EReal} {z : (⟨2, ![R, 32]⟩ : Shape).Idx → EReal}
    {ag : (⟨2, ![R, 48]⟩ : Shape).Idx → EReal} {xg' xl' : (⟨2, ![R', 64]⟩ : Shape).Idx → EReal}
    {z' : (⟨2, ![R', 32]⟩ : Shape).Idx → EReal} {ag' : (⟨2, ![R', 48]⟩ : Shape).Idx → EReal}
    (W1 : (⟨2, ![208, 256]⟩ : Shape).Idx → EReal) (b1 : (⟨1, ![256]⟩ : Shape).Idx → EReal)
    (W2 : (⟨2, ![256, 64]⟩ : Shape).Idx → EReal) (b2 : (⟨1, ![64]⟩ : Shape).Idx → EReal) {r : Fin R} {r' : Fin R'} (c : Fin 64)
    (hxg : ∀ k : Fin 64, xg (ix2 r k) = xg' (ix2 r' k)) (hxl : ∀ k : Fin 64, xl (ix2 r k) = xl' (ix2 r' k))
    (hz : ∀ k : Fin 32, z (ix2 r k) = z' (ix2 r' k)) (hag : ∀ k : Fin 48, ag (ix2 r k) = ag' (ix2 r' k)) :
    outAt xg xl z ag W1 b1 W2 b2 r c = outAt xg' xl' z' ag' W1 b1 W2 b2 r' c := by
  unfold outAt hidden
  simp only [hxg, hxl, hz, hag]

end Cert.Mlp

end
-- ==== Proof.KernelBlock.lean ====
/-
  What the kernel's body leaves in its output block, entry by entry.

  At a grid point the body loads a block of 2000 rows of each feature group (`xg` [2000, 64], `ag` [2000, 48],
  `xl` [2000, 64], `z` [2000, 32]), the four row groups of the first weight matrix ([64, 256], [64, 256], [32, 256],
  [48, 256]), the first bias as a row [1, 256], the second weight matrix [256, 64] and the second bias as a row [1, 64].
  Over the extended reals a change of float format is the identity and a matrix product into the zero splat is the plain
  sum of products, so entry (p, c) of the stored block is
    Σ_j max (Σ_k xg[p,k]·Wx[k,j] + Σ_k xl[p,k]·Wl[k,j] + Σ_k z[p,k]·Wz[k,j] + Σ_k ag[p,k]·Wa[k,j] + b1[0,j]) 0 · W2[j,c] + b2[0,c].
  When the loaded blocks hold row r of the whole feature arrays in their row p, and the weight pieces hold the four
  stretches of rows of W1, this is the perceptron's entry (r, c) (`Cert.Mlp.outAt`).
-/
import proofs.«112574_j50242527429374_2_alg».proof.Proof.Gen.KernelIdeal.Value
import proofs.«112574_j50242527429374_2_alg».proof.Proof.LibDotRows
import proofs.«112574_j50242527429374_2_alg».proof.Proof.MlpSpec
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Cert.KernelIdeal.Value Idealize.ShloMosaic Idealize.ShloMosaic.ValueIdx

/-- A block of 2000 rows of 64 features times a [64, 256] weight piece, into the zero splat: the plain sum. -/
theorem mm64 (x : FVec Ideal S2000x64 .bf16) (w : FVec Ideal S64x256 .bf16) (p : Fin 2000) (j : Fin 256) :
    matmul (F := Ideal) dot_S2000x64_S64x256_S2000x256_1_0_0_1_n_n none x w (constant S2000x256 .f32 0x00000000#32) (ix2 p j)
      = ∑ k : Fin 64, x (ix2 p k) * w (ix2 k j) :=
  Cert.Lib.DotRows.matmul_plain_apply x w p j

/-- The same for 32 features. -/
theorem mm32 (x : FVec Ideal S2000x32 .bf16) (w : FVec Ideal S32x256 .bf16) (p : Fin 2000) (j : Fin 256) :
    matmul (F := Ideal) dot_S2000x32_S32x256_S2000x256_1_0_0_1_n_n none x w (constant S2000x256 .f32 0x00000000#32) (ix2 p j)
      = ∑ k : Fin 32, x (ix2 p k) * w (ix2 k j) :=
  Cert.Lib.DotRows.matmul_plain_apply x w p j

/-- The same for 48 features. -/
theorem mm48 (x : FVec Ideal S2000x48 .bf16) (w : FVec Ideal S48x256 .bf16) (p : Fin 2000) (j : Fin 256) :
    matmul (F := Ideal) dot_S2000x48_S48x256_S2000x256_1_0_0_1_n_n none x w (constant S2000x256 .f32 0x00000000#32) (ix2 p j)
      = ∑ k : Fin 48, x (ix2 p k) * w (ix2 k j) :=
  Cert.Lib.DotRows.matmul_plain_apply x w p j

/-- The hidden block [2000, 256] times the second weight matrix [256, 64]. -/
theorem mm256 (x : FVec Ideal S2000x256 .bf16) (w : FVec Ideal S256x64 .bf16) (p : Fin 2000) (c : Fin 64) :
    matmul (F := Ideal) dot_S2000x256_S256x64_S2000x64_1_0_0_1_n_n none x w (constant S2000x64 .f32 0x00000000#32) (ix2 p c)
      = ∑ j : Fin 256, x (ix2 p j) * w (ix2 j c) :=
  Cert.Lib.DotRows.matmul_plain_apply x w p c

/-- Entry (p, c) of the value the body's second product leaves: the hidden row of block row p times W2. -/
theorem pay2_apply (P0 : Vec Ideal S2000x64 .bf16) (P1 : Vec Ideal S2000x48 .bf16) (P2 : Vec Ideal S2000x64 .f32)
    (P3 : Vec Ideal S2000x32 .f32) (P4 P5 : Vec Ideal S64x256 .bf16) (P6 : Vec Ideal S32x256 .bf16)
    (P7 : Vec Ideal S48x256 .bf16) (P8 : Vec Ideal S1x256 .f32) (P9 : Vec Ideal S256x64 .bf16) (p : Fin 2000) (c : Fin 64) :
    k0_pay2 P0 P1 P2 P3 P4 P5 P6 P7 P8 P9 (ix2 p c)
      = ∑ j : Fin 256, max ((∑ k : Fin 64, P0 (ix2 p k) * P4 (ix2 k j)) + (∑ k : Fin 64, P2 (ix2 p k) * P5 (ix2 k j))
          + (∑ k : Fin 32, P3 (ix2 p k) * P6 (ix2 k j)) + (∑ k : Fin 48, P1 (ix2 p k) * P7 (ix2 k j))
          + P8 (ix2 (0 : Fin 1) j)) 0 * P9 (ix2 j c) := by
  unfold k0_pay2
  simp only [shapeCast_self]
  refine (mm256 _ _ p c).trans (Finset.sum_congr rfl fun j _ => ?_)
  refine congrArg₂ (· * ·) ?_ rfl
  show max (_ + _ + _ + _ + _) _ = _
  exact congrArg₂ max (congrArg₂ (· + ·) (congrArg₂ (· + ·) (congrArg₂ (· + ·) (congrArg₂ (· + ·)
    (mm64 P0 P4 p j) (mm64 (truncf .bf16 P2 _) P5 p j)) (mm32 (truncf .bf16 P3 _) P6 p j)) (mm48 P1 P7 p j))
    (broadcastTo_1b_ab_apply P8 _ p j)) Ideal.ofBits_zero_f32

/-- Entry (p, c) of the stored block: that value plus the second bias's lane c. -/
theorem E11_apply (P0 : Vec Ideal S2000x64 .bf16) (P1 : Vec Ideal S2000x48 .bf16) (P2 : Vec Ideal S2000x64 .f32)
    (P3 : Vec Ideal S2000x32 .f32) (P4 P5 : Vec Ideal S64x256 .bf16) (P6 : Vec Ideal S32x256 .bf16)
    (P7 : Vec Ideal S48x256 .bf16) (P8 : Vec Ideal S1x256 .f32) (P9 : Vec Ideal S256x64 .bf16) (P10 : Vec Ideal S1x64 .f32)
    (p : Fin 2000) (c : Fin 64) :
    E11 P0 P1 P2 P3 P4 P5 P6 P7 P8 P9 P10 (ix2 p c)
      = (∑ j : Fin 256, max ((∑ k : Fin 64, P0 (ix2 p k) * P4 (ix2 k j)) + (∑ k : Fin 64, P2 (ix2 p k) * P5 (ix2 k j))
          + (∑ k : Fin 32, P3 (ix2 p k) * P6 (ix2 k j)) + (∑ k : Fin 48, P1 (ix2 p k) * P7 (ix2 k j))
          + P8 (ix2 (0 : Fin 1) j)) 0 * P9 (ix2 j c)) + P10 (ix2 (0 : Fin 1) c) := by
  have e0 : ix11_0 (ix2 p c : S2000x64.Idx) = ix2 p c := by
    funext a; match a with | ⟨0, _⟩ => rfl | ⟨1, _⟩ => rfl
  have e1 : ix11_1 (ix2 p c : S2000x64.Idx) = ix2 (0 : Fin 1) c := by
    funext a; match a with | ⟨0, _⟩ => rfl | ⟨1, _⟩ => rfl
  show k0_pay2 P0 P1 P2 P3 P4 P5 P6 P7 P8 P9 (ix11_0 (ix2 p c)) + P10 (ix11_1 (ix2 p c)) = _
  rw [e0, e1, pay2_apply]

/-- THE BLOCK IS THE PERCEPTRON'S ROWS. If row p of the loaded feature blocks is row r of the whole feature arrays, the four
    weight pieces are the four stretches of rows of W1, and the bias rows and W2 are the whole biases and W2, then entry
    (p, c) of the stored block is the perceptron's entry (r, c). -/
theorem block_entry {R : Nat} (xg xl : (⟨2, ![R, 64]⟩ : Shape).Idx → EReal) (z : (⟨2, ![R, 32]⟩ : Shape).Idx → EReal)
    (ag : (⟨2, ![R, 48]⟩ : Shape).Idx → EReal) (W1 : (⟨2, ![208, 256]⟩ : Shape).Idx → EReal)
    (b1 : (⟨1, ![256]⟩ : Shape).Idx → EReal) (W2 : (⟨2, ![256, 64]⟩ : Shape).Idx → EReal)
    (b2 : (⟨1, ![64]⟩ : Shape).Idx → EReal)
    (P0 : Vec Ideal S2000x64 .bf16) (P1 : Vec Ideal S2000x48 .bf16) (P2 : Vec Ideal S2000x64 .f32)
    (P3 : Vec Ideal S2000x32 .f32) (P4 P5 : Vec Ideal S64x256 .bf16) (P6 : Vec Ideal S32x256 .bf16)
    (P7 : Vec Ideal S48x256 .bf16) (P8 : Vec Ideal S1x256 .f32) (P9 : Vec Ideal S256x64 .bf16) (P10 : Vec Ideal S1x64 .f32)
    (p : Fin 2000) (r : Fin R) (c : Fin 64)
    (h0 : ∀ k : Fin 64, P0 (ix2 p k) = xg (ix2 r k)) (h1 : ∀ k : Fin 48, P1 (ix2 p k) = ag (ix2 r k))
    (h2 : ∀ k : Fin 64, P2 (ix2 p k) = xl (ix2 r k)) (h3 : ∀ k : Fin 32, P3 (ix2 p k) = z (ix2 r k))
    (h4 : ∀ (k : Fin 64) (j : Fin 256), P4 (ix2 k j) = W1 (ix2 (⟨k.val, by have := k.isLt; omega⟩ : Fin 208) j))
    (h5 : ∀ (k : Fin 64) (j : Fin 256), P5 (ix2 k j) = W1 (ix2 (⟨64 + k.val, by have := k.isLt; omega⟩ : Fin 208) j))
    (h6 : ∀ (k : Fin 32) (j : Fin 256), P6 (ix2 k j) = W1 (ix2 (⟨64 + 64 + k.val, by have := k.isLt; omega⟩ : Fin 208) j))
    (h7 : ∀ (k : Fin 48) (j : Fin 256), P7 (ix2 k j) = W1 (ix2 (⟨64 + 64 + 32 + k.val, by have := k.isLt; omega⟩ : Fin 208) j))
    (h8 : ∀ j : Fin 256, P8 (ix2 (0 : Fin 1) j) = b1 (ix1 j))
    (h9 : ∀ (j : Fin 256) (q : Fin 64), P9 (ix2 j q) = W2 (ix2 j q))
    (h10 : ∀ q : Fin 64, P10 (ix2 (0 : Fin 1) q) = b2 (ix1 q)) :
    E11 P0 P1 P2 P3 P4 P5 P6 P7 P8 P9 P10 (ix2 p c) = Cert.Mlp.outAt xg xl z ag W1 b1 W2 b2 r c := by
  rw [E11_apply]
  unfold Cert.Mlp.outAt Cert.Mlp.hidden
  simp only [h0, h1, h2, h3, h4, h5, h6, h7, h8, h9, h10]

end Cert.KernelIdeal.Block

end
-- ==== Proof.KernelWindows.lean ====
/-
  The windows' blocks read entry by entry.

  The grid has 25 points. At point t the four feature windows and the result window hold rows 2000·t … 2000·t + 1999 of
  their arrays; every other window (the weight pieces, the biases, W2) holds its whole array at every point. So row p of a
  feature block is row 2000·t + p of the array, and an entry of a weight block is the same entry of the array — whatever
  the array holds (the array is a variable here).
-/
import proofs.«112574_j50242527429374_2_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The printed index maps over the grid: the four feature windows and the result move one block of rows per point, every
    other window stays at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Row p of window 0's block at point t is row 2000·t + p of its array, whatever the array holds. -/
theorem read0 (c : Dev nD) (X : Buf (Elt Ideal) ((c : Thread nD τ).loc main_v12)) (t : Fin cfg0.N) (p : Fin 2000) (k : Fin 64)
    (r : Fin 50000) (hr : r.val = 2000 * t.val + p.val) :
    (((cfg0.win 0).blk t).view.read (Elt Ideal) X : Vec Ideal S2000x64 .bf16) (ix2 p k) = (X : S50000x64.Idx → Elt Ideal .bf16) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S50000x64.Idx → Elt Ideal .bf16) (((cfg0.win 0).blk t).view.emb (ix2 p k)) = _
  refine congrArg (X : S50000x64.Idx → Elt Ideal .bf16) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- Row p of window 1's block at point t is row 2000·t + p of its array, whatever the array holds. -/
theorem read1 (c : Dev nD) (X : Buf (Elt Ideal) ((c : Thread nD τ).loc main_v20)) (t : Fin cfg0.N) (p : Fin 2000) (k : Fin 48)
    (r : Fin 50000) (hr : r.val = 2000 * t.val + p.val) :
    (((cfg0.win 1).blk t).view.read (Elt Ideal) X : Vec Ideal S2000x48 .bf16) (ix2 p k) = (X : S50000x48.Idx → Elt Ideal .bf16) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S50000x48.Idx → Elt Ideal .bf16) (((cfg0.win 1).blk t).view.emb (ix2 p k)) = _
  refine congrArg (X : S50000x48.Idx → Elt Ideal .bf16) (funext fun a => Fin.ext ?_)
  match a with
  | ⟨0, _⟩ => show win0_1.index t (0 : Fin 2) * 2000 + 1 * p.val = r.val; omega
  | ⟨1, _⟩ => show win0_1.index t (1 : Fin 2) * 48 + 1 * k.val = k.val; omega

/-- Row p of window 2's block at point t is row 2000·t + p of its array, whatever the array holds. -/
theorem read2 (c : Dev nD) (X : Buf (Elt Ideal) ((c : Thread nD τ).loc main_arg1)) (t : Fin cfg0.N) (p : Fin 2000) (k : Fin 64)
    (r : Fin 50000) (hr : r.val = 2000 * t.val + p.val) :
    (((cfg0.win 2).blk t).view.read (Elt Ideal) X : Vec Ideal S2000x64 .f32) (ix2 p k) = (X : S50000x64.Idx → Elt Ideal .f32) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S50000x64.Idx → Elt Ideal .f32) (((cfg0.win 2).blk t).view.emb (ix2 p k)) = _
  refine congrArg (X : S50000x64.Idx → Elt Ideal .f32) (funext fun a => Fin.ext ?_)
  match a with
  | ⟨0, _⟩ => show win0_2.index t (0 : Fin 2) * 2000 + 1 * p.val = r.val; omega
  | ⟨1, _⟩ => show win0_2.index t (1 : Fin 2) * 64 + 1 * k.val = k.val; omega

/-- Row p of window 3's block at point t is row 2000·t + p of its array, whatever the array holds. -/
theorem read3 (c : Dev nD) (X : Buf (Elt Ideal) ((c : Thread nD τ).loc main_arg2)) (t : Fin cfg0.N) (p : Fin 2000) (k : Fin 32)
    (r : Fin 50000) (hr : r.val = 2000 * t.val + p.val) :
    (((cfg0.win 3).blk t).view.read (Elt Ideal) X : Vec Ideal S2000x32 .f32) (ix2 p k) = (X : S50000x32.Idx → Elt Ideal .f32) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S50000x32.Idx → Elt Ideal .f32) (((cfg0.win 3).blk t).view.emb (ix2 p k)) = _
  refine congrArg (X : S50000x32.Idx → Elt Ideal .f32) (funext fun a => Fin.ext ?_)
  match a with
  | ⟨0, _⟩ => show win0_3.index t (0 : Fin 2) * 2000 + 1 * p.val = r.val; omega
  | ⟨1, _⟩ => show win0_3.index t (1 : Fin 2) * 32 + 1 * k.val = k.val; omega

/-- Window 4's block at any point is its whole array, whatever the array holds. -/
theorem read4 (c : Dev nD) (X : Buf (Elt Ideal) ((c : Thread nD τ).loc main_v22)) (t : Fin cfg0.N) (k : Fin 64) (j : Fin 256) :
    (((cfg0.win 4).blk t).view.read (Elt Ideal) X : Vec Ideal S64x256 .bf16) (ix2 k j) = (X : S64x256.Idx → Elt Ideal .bf16) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S64x256.Idx → Elt Ideal .bf16) (((cfg0.win 4).blk t).view.emb (ix2 k j)) = _
  refine congrArg (X : S64x256.Idx → Elt Ideal .bf16) (funext fun a => Fin.ext ?_)
  match a with
  | ⟨0, _⟩ => show win0_4.index t (0 : Fin 2) * 64 + 1 * k.val = k.val; omega
  | ⟨1, _⟩ => show win0_4.index t (1 : Fin 2) * 256 + 1 * j.val = j.val; omega

/-- Window 5's block at any point is its whole array, whatever the array holds. -/
theorem read5 (c : Dev nD) (X : Buf (Elt Ideal) ((c : Thread nD τ).loc main_v24)) (t : Fin cfg0.N) (k : Fin 64) (j : Fin 256) :
    (((cfg0.win 5).blk t).view.read (Elt Ideal) X : Vec Ideal S64x256 .bf16) (ix2 k j) = (X : S64x256.Idx → Elt Ideal .bf16) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S64x256.Idx → Elt Ideal .bf16) (((cfg0.win 5).blk t).view.emb (ix2 k j)) = _
  refine congrArg (X : S64x256.Idx → Elt Ideal .bf16) (funext fun a => Fin.ext ?_)
  match a with
  | ⟨0, _⟩ => show win0_5.index t (0 : Fin 2) * 64 + 1 * k.val = k.val; omega
  | ⟨1, _⟩ => show win0_5.index t (1 : Fin 2) * 256 + 1 * j.val = j.val; omega

/-- Window 6's block at any point is its whole array, whatever the array holds. -/
theorem read6 (c : Dev nD) (X : Buf (Elt Ideal) ((c : Thread nD τ).loc main_v26)) (t : Fin cfg0.N) (k : Fin 32) (j : Fin 256) :
    (((cfg0.win 6).blk t).view.read (Elt Ideal) X : Vec Ideal S32x256 .bf16) (ix2 k j) = (X : S32x256.Idx → Elt Ideal .bf16) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S32x256.Idx → Elt Ideal .bf16) (((cfg0.win 6).blk t).view.emb (ix2 k j)) = _
  refine congrArg (X : S32x256.Idx → Elt Ideal .bf16) (funext fun a => Fin.ext ?_)
  match a with
  | ⟨0, _⟩ => show win0_6.index t (0 : Fin 2) * 32 + 1 * k.val = k.val; omega
  | ⟨1, _⟩ => show win0_6.index t (1 : Fin 2) * 256 + 1 * j.val = j.val; omega

/-- Window 7's block at any point is its whole array, whatever the array holds. -/
theorem read7 (c : Dev nD) (X : Buf (Elt Ideal) ((c : Thread nD τ).loc main_v28)) (t : Fin cfg0.N) (k : Fin 48) (j : Fin 256) :
    (((cfg0.win 7).blk t).view.read (Elt Ideal) X : Vec Ideal S48x256 .bf16) (ix2 k j) = (X : S48x256.Idx → Elt Ideal .bf16) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S48x256.Idx → Elt Ideal .bf16) (((cfg0.win 7).blk t).view.emb (ix2 k j)) = _
  refine congrArg (X : S48x256.Idx → Elt Ideal .bf16) (funext fun a => Fin.ext ?_)
  match a with
  | ⟨0, _⟩ => show win0_7.index t (0 : Fin 2) * 48 + 1 * k.val = k.val; omega
  | ⟨1, _⟩ => show win0_7.index t (1 : Fin 2) * 256 + 1 * j.val = j.val; omega

/-- Window 8's block at any point is its whole array, whatever the array holds. -/
theorem read8 (c : Dev nD) (X : Buf (Elt Ideal) ((c : Thread nD τ).loc main_v30)) (t : Fin cfg0.N) (k : Fin 1) (j : Fin 256) :
    (((cfg0.win 8).blk t).view.read (Elt Ideal) X : Vec Ideal S1x256 .f32) (ix2 k j) = (X : S1x256.Idx → Elt Ideal .f32) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S1x256.Idx → Elt Ideal .f32) (((cfg0.win 8).blk t).view.emb (ix2 k j)) = _
  refine congrArg (X : S1x256.Idx → Elt Ideal .f32) (funext fun a => Fin.ext ?_)
  match a with
  | ⟨0, _⟩ => show win0_8.index t (0 : Fin 2) * 1 + 1 * k.val = k.val; omega
  | ⟨1, _⟩ => show win0_8.index t (1 : Fin 2) * 256 + 1 * j.val = j.val; omega

/-- Window 9's block at any point is its whole array, whatever the array holds. -/
theorem read9 (c : Dev nD) (X : Buf (Elt Ideal) ((c : Thread nD τ).loc main_v29)) (t : Fin cfg0.N) (k : Fin 256) (j : Fin 64) :
    (((cfg0.win 9).blk t).view.read (Elt Ideal) X : Vec Ideal S256x64 .bf16) (ix2 k j) = (X : S256x64.Idx → Elt Ideal .bf16) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S256x64.Idx → Elt Ideal .bf16) (((cfg0.win 9).blk t).view.emb (ix2 k j)) = _
  refine congrArg (X : S256x64.Idx → Elt Ideal .bf16) (funext fun a => Fin.ext ?_)
  match a with
  | ⟨0, _⟩ => show win0_9.index t (0 : Fin 2) * 256 + 1 * k.val = k.val; omega
  | ⟨1, _⟩ => show win0_9.index t (1 : Fin 2) * 64 + 1 * j.val = j.val; omega

/-- Window 10's block at any point is its whole array, whatever the array holds. -/
theorem read10 (c : Dev nD) (X : Buf (Elt Ideal) ((c : Thread nD τ).loc main_v31)) (t : Fin cfg0.N) (k : Fin 1) (j : Fin 64) :
    (((cfg0.win 10).blk t).view.read (Elt Ideal) X : Vec Ideal S1x64 .f32) (ix2 k j) = (X : S1x64.Idx → Elt Ideal .f32) (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show (X : S1x64.Idx → Elt Ideal .f32) (((cfg0.win 10).blk t).view.emb (ix2 k j)) = _
  refine congrArg (X : S1x64.Idx → Elt Ideal .f32) (funext fun a => Fin.ext ?_)
  match a with
  | ⟨0, _⟩ => show win0_10.index t (0 : Fin 2) * 1 + 1 * k.val = k.val; omega
  | ⟨1, _⟩ => show win0_10.index t (1 : Fin 2) * 64 + 1 * j.val = j.val; omega

/-- Row p of the result window's block at point t sits at row 2000·t + p of the result array. -/
theorem emb11 (t : Fin cfg0.N) (p : Fin 2000) (q : Fin 64) (r : Fin 50000) (hr : r.val = 2000 * t.val + p.val) :
    ((cfg0.win 11).blk t).view.emb (ix2 p q : S2000x64.Idx) = (ix2 r q : S50000x64.Idx) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext a; apply Fin.ext
  match a with
  | ⟨0, _⟩ => show win0_11.index t (0 : Fin 2) * 2000 + 1 * p.val = r.val; omega
  | ⟨1, _⟩ => show win0_11.index t (1 : Fin 2) * 64 + 1 * q.val = q.val; omega

/-- An index of the result array is in point `t`'s block iff each coordinate is in the block's range on its axis. -/
theorem mem_blk (t : Fin cfg0.N) (i : S50000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v32).slice (win0_11.rect t)).set ↔ _
  rw [View.set_slice_whole, Rect.mem_set_unit]
  exact Iff.rfl

/-- Every row of the result is in the block of the point that holds it: row r in the block of point r / 2000. -/
theorem cover (i : S50000x64.Idx) : ∃ t : Fin cfg0.N, (cfg0.win 11).flush t = true ∧ i ∈ ((cfg0.win 11).blk t).view.set := by
  have hN : cfg0.N = 25 := N_0
  have h0 : (i 0).val < 50000 := (i 0).isLt
  have h1 : (i 1).val < 64 := (i 1).isLt
  have hlt : (i 0).val / 2000 < cfg0.N := by rw [hN]; omega
  refine ⟨⟨(i 0).val / 2000, hlt⟩, flush0_11 _, ?_⟩
  rw [mem_blk]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts ⟨(i 0).val / 2000, hlt⟩
  intro a
  match a with
  | ⟨0, _⟩ =>
    show win0_11.index ⟨(i 0).val / 2000, hlt⟩ (0 : Fin 2) * 2000 ≤ (i 0).val ∧ (i 0).val < win0_11.index ⟨(i 0).val / 2000, hlt⟩ (0 : Fin 2) * 2000 + 2000
    rw [e11_0]; show (i 0).val / 2000 * 2000 ≤ (i 0).val ∧ (i 0).val < (i 0).val / 2000 * 2000 + 2000; omega
  | ⟨1, _⟩ =>
    show win0_11.index ⟨(i 0).val / 2000, hlt⟩ (1 : Fin 2) * 64 ≤ (i 1).val ∧ (i 1).val < win0_11.index ⟨(i 0).val / 2000, hlt⟩ (1 : Fin 2) * 64 + 64
    rw [e11_1]; omega

end Cert.KernelIdeal.Windows

end
-- ==== Proof.KernelValue.lean ====
/-
  The kernel's result array as one function of the argument arrays.

  The grid has 25 points; point t stages rows 2000·t … 2000·t + 1999 of the four feature arrays, the whole of every
  weight piece and bias, computes the perceptron on those rows and writes the block back to the same rows of the result.
  Row p of a feature block at point t is row 2000·t + p of its array, so by the block formula the block written back is
  the block of the perceptron of the whole arrays; the 25 blocks tile the 50000 rows, so the result array ends holding
  the perceptron of the gathered rows of x, the agents' own two feature arrays and the gathered scatter-added edge
  features, with W1, b1, W2, b2.
-/
import proofs.«112574_j50242527429374_2_alg».proof.Proof.Gen.KernelIdeal.Value
import proofs.«112574_j50242527429374_2_alg».proof.Proof.KernelBlock
import proofs.«112574_j50242527429374_2_alg».proof.Proof.KernelEntry
import proofs.«112574_j50242527429374_2_alg».proof.Proof.KernelWindows
import proofs.«112574_j50242527429374_2_alg».proof.Proof.MlpSpec
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The result array: the perceptron of the arrays the region finds. -/
abbrev G (c : Dev nD) : S50000x64.Idx → EReal :=
  Cert.Mlp.out (V m c main_v12 : S50000x64.Idx → Elt Ideal .bf16) (V m c main_arg1 : S50000x64.Idx → Elt Ideal .f32) (V m c main_arg2 : S50000x32.Idx → Elt Ideal .f32) (V m c main_v20 : S50000x48.Idx → Elt Ideal .bf16) ((m ((c : Thread nD τ).loc main_arg6)) : S208x256.Idx → Elt Ideal .f32) ((m ((c : Thread nD τ).loc main_arg7)) : S256.Idx → Elt Ideal .f32) ((m ((c : Thread nD τ).loc main_arg8)) : S256x64.Idx → Elt Ideal .f32) ((m ((c : Thread nD τ).loc main_arg9)) : S64.Idx → Elt Ideal .f32)

/-! ## The windows' blocks as the region finds them -/

/-- Row p of window 0's block at point t is row 2000·t + p of what the region finds in its array. -/
theorem blk0 (c : Dev nD) (t : Fin cfg0.N) (p : Fin 2000) (k : Fin 64) (r : Fin 50000) (hr : r.val = 2000 * t.val + p.val) :
    (iblk m c 0 t : Vec Ideal S2000x64 .bf16) (ix2 p k) = (V m c main_v12 : S50000x64.Idx → Elt Ideal .bf16) (ix2 r k) := by
  unfold iblk
  exact Windows.read0 c _ t p k r hr

/-- Row p of window 1's block at point t is row 2000·t + p of what the region finds in its array. -/
theorem blk1 (c : Dev nD) (t : Fin cfg0.N) (p : Fin 2000) (k : Fin 48) (r : Fin 50000) (hr : r.val = 2000 * t.val + p.val) :
    (iblk m c 1 t : Vec Ideal S2000x48 .bf16) (ix2 p k) = (V m c main_v20 : S50000x48.Idx → Elt Ideal .bf16) (ix2 r k) := by
  unfold iblk
  exact Windows.read1 c _ t p k r hr

/-- Row p of window 2's block at point t is row 2000·t + p of what the region finds in its array. -/
theorem blk2 (c : Dev nD) (t : Fin cfg0.N) (p : Fin 2000) (k : Fin 64) (r : Fin 50000) (hr : r.val = 2000 * t.val + p.val) :
    (iblk m c 2 t : Vec Ideal S2000x64 .f32) (ix2 p k) = (V m c main_arg1 : S50000x64.Idx → Elt Ideal .f32) (ix2 r k) := by
  unfold iblk
  exact Windows.read2 c _ t p k r hr

/-- Row p of window 3's block at point t is row 2000·t + p of what the region finds in its array. -/
theorem blk3 (c : Dev nD) (t : Fin cfg0.N) (p : Fin 2000) (k : Fin 32) (r : Fin 50000) (hr : r.val = 2000 * t.val + p.val) :
    (iblk m c 3 t : Vec Ideal S2000x32 .f32) (ix2 p k) = (V m c main_arg2 : S50000x32.Idx → Elt Ideal .f32) (ix2 r k) := by
  unfold iblk
  exact Windows.read3 c _ t p k r hr

/-- Window 4's block at any point is what the region finds in its whole array. -/
theorem blk4 (c : Dev nD) (t : Fin cfg0.N) (k : Fin 64) (j : Fin 256) :
    (iblk m c 4 t : Vec Ideal S64x256 .bf16) (ix2 k j) = (V m c main_v22 : S64x256.Idx → Elt Ideal .bf16) (ix2 k j) := by
  unfold iblk
  exact Windows.read4 c _ t k j

/-- Window 5's block at any point is what the region finds in its whole array. -/
theorem blk5 (c : Dev nD) (t : Fin cfg0.N) (k : Fin 64) (j : Fin 256) :
    (iblk m c 5 t : Vec Ideal S64x256 .bf16) (ix2 k j) = (V m c main_v24 : S64x256.Idx → Elt Ideal .bf16) (ix2 k j) := by
  unfold iblk
  exact Windows.read5 c _ t k j

/-- Window 6's block at any point is what the region finds in its whole array. -/
theorem blk6 (c : Dev nD) (t : Fin cfg0.N) (k : Fin 32) (j : Fin 256) :
    (iblk m c 6 t : Vec Ideal S32x256 .bf16) (ix2 k j) = (V m c main_v26 : S32x256.Idx → Elt Ideal .bf16) (ix2 k j) := by
  unfold iblk
  exact Windows.read6 c _ t k j

/-- Window 7's block at any point is what the region finds in its whole array. -/
theorem blk7 (c : Dev nD) (t : Fin cfg0.N) (k : Fin 48) (j : Fin 256) :
    (iblk m c 7 t : Vec Ideal S48x256 .bf16) (ix2 k j) = (V m c main_v28 : S48x256.Idx → Elt Ideal .bf16) (ix2 k j) := by
  unfold iblk
  exact Windows.read7 c _ t k j

/-- Window 8's block at any point is what the region finds in its whole array. -/
theorem blk8 (c : Dev nD) (t : Fin cfg0.N) (k : Fin 1) (j : Fin 256) :
    (iblk m c 8 t : Vec Ideal S1x256 .f32) (ix2 k j) = (V m c main_v30 : S1x256.Idx → Elt Ideal .f32) (ix2 k j) := by
  unfold iblk
  exact Windows.read8 c _ t k j

/-- Window 9's block at any point is what the region finds in its whole array. -/
theorem blk9 (c : Dev nD) (t : Fin cfg0.N) (k : Fin 256) (j : Fin 64) :
    (iblk m c 9 t : Vec Ideal S256x64 .bf16) (ix2 k j) = (V m c main_v29 : S256x64.Idx → Elt Ideal .bf16) (ix2 k j) := by
  unfold iblk
  exact Windows.read9 c _ t k j

/-- Window 10's block at any point is what the region finds in its whole array. -/
theorem blk10 (c : Dev nD) (t : Fin cfg0.N) (k : Fin 1) (j : Fin 64) :
    (iblk m c 10 t : Vec Ideal S1x64 .f32) (ix2 k j) = (V m c main_v31 : S1x64.Idx → Elt Ideal .f32) (ix2 k j) := by
  unfold iblk
  exact Windows.read10 c _ t k j

/-! ## Blocks to the array -/

/-- WHAT POINT `t` WRITES BACK is block `t` of the perceptron of the whole arrays. -/
theorem flushed_eq (c : Dev nD) (t : Fin cfg0.N) :
    (dats m 0 c).flushed 11 t = ((cfg0.win 11).blk t).view.read (Elt Ideal) (G m c) := by
  rw [Value.flushed11]
  unfold out0_11
  simp only [View.ld_unit_zero (S := S2000x64) Windows.hz, View.ld_unit_zero (S := S2000x48) Windows.hz, View.ld_unit_zero (S := S2000x32) Windows.hz,
    View.ld_unit_zero (S := S64x256) Windows.hz, View.ld_unit_zero (S := S32x256) Windows.hz, View.ld_unit_zero (S := S48x256) Windows.hz,
    View.ld_unit_zero (S := S1x256) Windows.hz, View.ld_unit_zero (S := S256x64) Windows.hz, View.ld_unit_zero (S := S1x64) Windows.hz]
  refine funext fun (y : S2000x64.Idx) => ?_
  obtain ⟨p, q, rfl⟩ : ∃ (p : Fin 2000) (q : Fin 64), y = ix2 p q := ⟨y 0, y 1, eq_ix2 y⟩
  have hN : cfg0.N = 25 := N_0
  have ht : t.val < cfg0.N := t.isLt
  have hp : p.val < 2000 := p.isLt
  show (View.canon ([⟨r0_0, k0_pay1 (k0_pay2 (iblk m c 0 t) (iblk m c 1 t) (iblk m c 2 t) (iblk m c 3 t) (iblk m c 4 t) (iblk m c 5 t) (iblk m c 6 t) (iblk m c 7 t) (iblk m c 8 t) (iblk m c 9 t)) (iblk m c 10 t)⟩] : List (View.Piece (Elt Ideal) S2000x64 .f32)) : S2000x64.Idx → Elt Ideal .f32) (ix2 p q)
    = G m c (((cfg0.win 11).blk t).view.emb (ix2 p q : S2000x64.Idx))
  rw [Windows.emb11 t p q (⟨2000 * t.val + p.val, by omega⟩ : Fin 50000) rfl]
  refine (Value.canon11_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)).trans ?_
  exact Cert.KernelIdeal.Block.block_entry (V m c main_v12 : S50000x64.Idx → Elt Ideal .bf16) (V m c main_arg1 : S50000x64.Idx → Elt Ideal .f32) (V m c main_arg2 : S50000x32.Idx → Elt Ideal .f32) (V m c main_v20 : S50000x48.Idx → Elt Ideal .bf16) ((m ((c : Thread nD τ).loc main_arg6)) : S208x256.Idx → Elt Ideal .f32) ((m ((c : Thread nD τ).loc main_arg7)) : S256.Idx → Elt Ideal .f32) ((m ((c : Thread nD τ).loc main_arg8)) : S256x64.Idx → Elt Ideal .f32) ((m ((c : Thread nD τ).loc main_arg9)) : S64.Idx → Elt Ideal .f32)
    (iblk m c 0 t) (iblk m c 1 t) (iblk m c 2 t) (iblk m c 3 t) (iblk m c 4 t) (iblk m c 5 t) (iblk m c 6 t) (iblk m c 7 t) (iblk m c 8 t) (iblk m c 9 t) (iblk m c 10 t) p (⟨2000 * t.val + p.val, by omega⟩ : Fin 50000) q
    (fun k => blk0 m c t p k _ rfl) (fun k => blk1 m c t p k _ rfl) (fun k => blk2 m c t p k _ rfl) (fun k => blk3 m c t p k _ rfl)
    (fun k j => (blk4 m c t k j).trans (Entry.w1x_apply m c k j)) (fun k j => (blk5 m c t k j).trans (Entry.w1l_apply m c k j))
    (fun k j => (blk6 m c t k j).trans (Entry.w1z_apply m c k j)) (fun k j => (blk7 m c t k j).trans (Entry.w1a_apply m c k j))
    (fun j => (blk8 m c t 0 j).trans (Entry.b1_apply m c j)) (fun j q => (blk9 m c t j q).trans (Entry.w2_apply m c j q))
    (fun q => (blk10 m c t 0 q).trans (Entry.b2_apply m c q))

/-- THE ARRAY after the run is the perceptron of the arrays the region finds. -/
theorem final (c : Dev nD) : (dats m 0 c).arrAt 11 cfg0.N = G m c :=
  (dats m 0 c).arrAt_eq_of_cover 11 (G m c) (fun t _ => flushed_eq m c t) Windows.cover

/-- The frame run re-posted: the result array at the perceptron, the arguments unchanged. -/
theorem run : θ_run defs (onTc (τ := τ) (main (F := Ideal))) ⟨m, fun _ => 0, ρ⟩ fun r => ∀ c : Dev nD,
      r.2.mem ((c : Thread nD τ).loc main_v32) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.LibConcat4.lean ====
/-
  Four arrays [R, n₁], [R, n₂], [R, n₃], [R, n₄] laid side by side along the lanes, read at an index.

  The concatenation along axis 1 is an [R, w] array with w = n₁ + n₂ + n₃ + n₄. Its entry in row r at one of the first
  n₁ lanes is the first piece's entry in that row and lane; at lane n₁ + q it is the second piece's entry in row r,
  lane q; at lane n₁ + n₂ + q the third's; at lane n₁ + n₂ + n₃ + q the fourth's. So a row of the concatenation is the
  four pieces' rows one after the other.
-/
import Idealize.ShloMosaic.Lib.Pipeline.Value
import Idealize.ShloMosaic.Lib.ValueIdx

namespace Cert.LibConcat4

open Idealize.ShloMosaic Idealize.ShloMosaic.ValueIdx

variable {α : Type} {R n₁ n₂ n₃ n₄ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate4_first (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate4_second (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

/-- A lane of the third piece. -/
theorem concatenate4_third (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₃) (hl : l.val = n₁ + n₂ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = c (ix2 r q) :=
  concatenate_apply_piece (1 : Fin 2) _ h (ix2 r l) 2 (by simp) ⟨2, ![R, n₃]⟩ c rfl rfl (n₁ + n₂) (by simp)
    (ix2 r q) (off_axis r l _ rfl) (by show n₁ + n₂ + q.val = l.val; omega)

/-- A lane of the fourth piece. -/
theorem concatenate4_fourth (a : (⟨2, ![R, n₁]⟩ : Shape).Idx → α) (b : (⟨2, ![R, n₂]⟩ : Shape).Idx → α)
    (c : (⟨2, ![R, n₃]⟩ : Shape).Idx → α) (d : (⟨2, ![R, n₄]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩,
      ⟨⟨2, ![R, n₄]⟩, d⟩].map (·.1)) ⟨2, ![R, w]⟩ (1 : Fin 2))
    (r : Fin R) (l : Fin w) (q : Fin n₄) (hl : l.val = n₁ + n₂ + n₃ + q.val) :
    concatenate ⟨2, ![R, w]⟩ (1 : Fin 2) [⟨⟨2, ![R, n₁]⟩, a⟩, ⟨⟨2, ![R, n₂]⟩, b⟩, ⟨⟨2, ![R, n₃]⟩, c⟩, ⟨⟨2, ![R, n₄]⟩, d⟩] h (ix2 r l)
      = d (ix2 r q) :=
  concatenate_apply_piece (1 : Fin 2) _ h (ix2 r l) 3 (by simp) ⟨2, ![R, n₄]⟩ d rfl rfl (n₁ + n₂ + n₃) (by simp <;> omega)
    (ix2 r q) (off_axis r l _ rfl) (by show n₁ + n₂ + n₃ + q.val = l.val; omega)

end Cert.LibConcat4
-- ==== Proof.LibSplitSum4.lean ====
/-
  A finite sum cut into four consecutive stretches.

  If w = n₁ + n₂ + n₃ + n₄, a sum over the positions 0 … w − 1 is the sum over the first n₁ positions, plus the sum
  over the next n₂, plus the sum over the next n₃, plus the sum over the last n₄ — in any commutative additive monoid
  (only the grouping of the terms changes, so nothing about finiteness is asked of the terms).
-/
import Mathlib.Algebra.BigOperators.Fin

namespace Cert.LibSplitSum4

/-- A sum over `w = n₁ + n₂ + n₃ + n₄` consecutive positions is the sum of the sums over its four stretches,
    position `k` of the second stretch being `n₁ + k`, of the third `n₁ + n₂ + k`, of the fourth `n₁ + n₂ + n₃ + k`. -/
theorem sum_split4 {M : Type*} [AddCommMonoid M] {n₁ n₂ n₃ n₄ w : Nat} (hw : w = n₁ + n₂ + n₃ + n₄) (f : Fin w → M) :
    ∑ k : Fin w, f k
      = (∑ k : Fin n₁, f ⟨k.val, by have := k.isLt; omega⟩)
        + (∑ k : Fin n₂, f ⟨n₁ + k.val, by have := k.isLt; omega⟩)
        + (∑ k : Fin n₃, f ⟨n₁ + n₂ + k.val, by have := k.isLt; omega⟩)
        + (∑ k : Fin n₄, f ⟨n₁ + n₂ + n₃ + k.val, by have := k.isLt; omega⟩) := by
  subst hw
  rw [Fin.sum_univ_add, Fin.sum_univ_add, Fin.sum_univ_add]
  rfl

end Cert.LibSplitSum4
-- ==== Proof.RefValue.lean ====
/-
  The reference is the perceptron on the gathered and joined rows.

  The reference gathers a row of x and a row of the scatter-added edge features for every agent, joins them with the
  agent's own two feature rows into a row of 208 features, and applies Linear(208, 256), a cut below at zero and
  Linear(256, 64). Read at entry (r, c): the first product is a sum over the 208 joined features; cut into the four
  stretches the join was made of (64, 64, 32, 48), each stretch reads its own piece in row r, which is the perceptron's
  first layer written group by group (`Cert.Mlp.hidden`). The gathers and the scatter-add are carried along unopened.
-/
import proofs.«112574_j50242527429374_2_alg».proof.Proof.Gen.ReferenceIdeal.Read
import proofs.«112574_j50242527429374_2_alg».proof.Proof.MlpSpec
import proofs.«112574_j50242527429374_2_alg».proof.Proof.LibConcat4
import proofs.«112574_j50242527429374_2_alg».proof.Proof.LibSplitSum4
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The joined row r at a lane of the first stretch is the gathered row of x. -/
theorem joined_first (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (r : Fin 50000) (k : Fin 64) :
    val_main_v19 (F := Ideal) x0 x1 x2 x3 x4 x5 (ix2 r (⟨k.val, by have := k.isLt; omega⟩ : Fin 208))
      = val_main_v11 (F := Ideal) x0 x5 (ix2 r k) := by
  unfold val_main_v19
  exact Cert.LibConcat4.concatenate4_first _ _ _ _ _ r _ k rfl

/-- At a lane of the second stretch it is the agent's first own row. -/
theorem joined_second (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (r : Fin 50000) (k : Fin 64) :
    val_main_v19 (F := Ideal) x0 x1 x2 x3 x4 x5 (ix2 r (⟨64 + k.val, by have := k.isLt; omega⟩ : Fin 208))
      = x1 (ix2 r k) := by
  unfold val_main_v19
  exact Cert.LibConcat4.concatenate4_second _ _ _ _ _ r _ k rfl

/-- At a lane of the third stretch it is the agent's second own row. -/
theorem joined_third (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (r : Fin 50000) (k : Fin 32) :
    val_main_v19 (F := Ideal) x0 x1 x2 x3 x4 x5 (ix2 r (⟨64 + 64 + k.val, by have := k.isLt; omega⟩ : Fin 208))
      = x2 (ix2 r k) := by
  unfold val_main_v19
  exact Cert.LibConcat4.concatenate4_third _ _ _ _ _ r _ k rfl

/-- At a lane of the fourth stretch it is the gathered row of the scatter-added edge features. -/
theorem joined_fourth (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (r : Fin 50000) (k : Fin 48) :
    val_main_v19 (F := Ideal) x0 x1 x2 x3 x4 x5 (ix2 r (⟨64 + 64 + 32 + k.val, by have := k.isLt; omega⟩ : Fin 208))
      = val_main_v18 (F := Ideal) x3 x4 x5 (ix2 r k) := by
  unfold val_main_v19
  exact Cert.LibConcat4.concatenate4_fourth _ _ _ _ _ r _ k rfl

/-- Hidden unit j of agent r in the reference: the product of the joined row with W1, cut into the four stretches. -/
theorem hidden_ref (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (x6 : (⟨S208x256, .f32⟩ : BufTy).Contents (Elt Ideal)) (x7 : (⟨S256, .f32⟩ : BufTy).Contents (Elt Ideal)) (r : Fin 50000) (j : Fin 256) :
    val_main_v24 (F := Ideal) x0 x1 x2 x3 x4 x5 x6 x7 (ix2 r j)
      = Cert.Mlp.hidden (val_main_v11 (F := Ideal) x0 x5) x1 x2 (val_main_v18 (F := Ideal) x3 x4 x5) x6 x7 r j := by
  have el : ∀ k : Fin 208, lidx_main_v20 (ix2 r j : S50000x256.Idx) k = ix2 r k := fun k => funext fun a => by
    match a with | ⟨0, _⟩ => rfl | ⟨1, _⟩ => rfl
  have er : ∀ k : Fin 208, ridx_main_v20 (ix2 r j : S50000x256.Idx) k = ix2 k j := fun k => funext fun a => by
    match a with | ⟨0, _⟩ => rfl | ⟨1, _⟩ => rfl
  have eb : idx_main_v21 (idx_main_v22 (ix2 r j : S50000x256.Idx)) = ix1 j := funext fun a => by
    match a with | ⟨0, _⟩ => rfl
  rw [val_main_v24_apply, val_main_v23_apply, val_main_v20_apply, val_main_v22_apply, val_main_v21_apply,
    val_main_call0_v0_apply, val_main_call0_cst_apply]
  simp only [el, er, eb]
  unfold Cert.Mlp.hidden
  show max ((∑ k : Fin 208, _) + _) _ = _
  refine congrArg₂ max (congrArg₂ (· + ·) ?_ rfl) Ideal.ofBits_zero_f32
  rw [Cert.LibSplitSum4.sum_split4 (n₁ := 64) (n₂ := 64) (n₃ := 32) (n₄ := 48) rfl]
  refine congrArg₂ (· + ·) (congrArg₂ (· + ·) (congrArg₂ (· + ·) ?_ ?_) ?_) ?_
  · exact Finset.sum_congr rfl fun k _ => congrArg₂ (· * ·) (joined_first x0 x1 x2 x3 x4 x5 r k) rfl
  · exact Finset.sum_congr rfl fun k _ => congrArg₂ (· * ·) (joined_second x0 x1 x2 x3 x4 x5 r k) rfl
  · exact Finset.sum_congr rfl fun k _ => congrArg₂ (· * ·) (joined_third x0 x1 x2 x3 x4 x5 r k) rfl
  · exact Finset.sum_congr rfl fun k _ => congrArg₂ (· * ·) (joined_fourth x0 x1 x2 x3 x4 x5 r k) rfl

/-- THE REFERENCE'S RESULT is the perceptron on the gathered row of x, the agent's two own rows and the gathered row of
    the scatter-added edge features. -/
theorem result_is_mlp (x0 : (⟨S100000x64, .f32⟩ : BufTy).Contents (Elt Ideal)) (x1 : (⟨S50000x64, .f32⟩ : BufTy).Contents (Elt Ideal)) (x2 : (⟨S50000x32, .f32⟩ : BufTy).Contents (Elt Ideal)) (x3 : (⟨S2x1600000, .i32⟩ : BufTy).Contents (Elt Ideal)) (x4 : (⟨S1600000x48, .f32⟩ : BufTy).Contents (Elt Ideal)) (x5 : (⟨S50000, .i32⟩ : BufTy).Contents (Elt Ideal)) (x6 : (⟨S208x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) :
    val_main_v28 (F := Ideal) x0 x1 x2 x3 x4 x5 x6 x7 x8 x9
      = Cert.Mlp.out (val_main_v11 (F := Ideal) x0 x5) x1 x2 (val_main_v18 (F := Ideal) x3 x4 x5) x6 x7 x8 x9 := by
  funext i
  obtain ⟨r, c, rfl⟩ : ∃ (r : Fin 50000) (c : Fin 64), i = ix2 r c := ⟨i 0, i 1, eq_ix2 i⟩
  have el : ∀ k : Fin 256, lidx_main_v25 (ix2 r c : S50000x64.Idx) k = ix2 r k := fun k => funext fun a => by
    match a with | ⟨0, _⟩ => rfl | ⟨1, _⟩ => rfl
  have er : ∀ k : Fin 256, ridx_main_v25 (ix2 r c : S50000x64.Idx) k = ix2 k c := fun k => funext fun a => by
    match a with | ⟨0, _⟩ => rfl | ⟨1, _⟩ => rfl
  have eb : idx_main_v26 (idx_main_v27 (ix2 r c : S50000x64.Idx)) = ix1 c := funext fun a => by
    match a with | ⟨0, _⟩ => rfl
  rw [Cert.Mlp.out_apply, val_main_v28_apply, val_main_v25_apply, val_main_v27_apply, val_main_v26_apply]
  simp only [el, er, eb]
  unfold Cert.Mlp.outAt
  exact congrArg₂ (· + ·) (Finset.sum_congr rfl fun j _ =>
    congrArg₂ (· * ·) (hidden_ref x0 x1 x2 x3 x4 x5 x6 x7 r j) rfl) rfl

end Cert.ReferenceIdeal.RefValue

end
-- ==== Proof.SharedGathers.lean ====
/-
  The host operations the two programs share.

  Both programs gather, for every agent, the row of x and the row of the scatter-added edge features that the agent's node
  index names, from the same arguments, by the same operations with the same dimension numbers. So what the kernel's
  region finds in the two gathered arrays is, term for term, what the reference's gathers give; neither the gathers nor
  the scatter-add is opened. (The kernel's change of float format after each gather is the identity over the extended reals.)
-/
import proofs.«112574_j50242527429374_2_alg».proof.Proof.KernelEntry
import proofs.«112574_j50242527429374_2_alg».proof.Proof.Gen.ReferenceIdeal.Read
import Idealize.ShloMosaic.Lib.ValueIdx

noncomputable section

namespace Cert.Shared

open Idealize.ShloMosaic Idealize.ShloMosaic.TcCoe Idealize.SL.Sem

/-- Over the extended reals a change to a narrower float format is the identity, array by array. -/
theorem truncf_id {s : Shape} {φ ψ : FTy} (a : FVec Ideal s φ) (h : ψ.bits < φ.bits) :
    (truncf (F := Ideal) ψ a h : s.Idx → EReal) = (a : s.Idx → EReal) :=
  funext fun i => ValueIdx.truncf_apply a h i

/-- The two programs gather rows of x with the same dimension numbers. -/
theorem gather64_eq : Cert.KernelIdeal.gather_S100000x64_S50000x1_S50000x64_1_0_n_n_0_1_164
    = Cert.ReferenceIdeal.gather_S100000x64_S50000x1_S50000x64_1_0_n_n_0_1_164 := rfl

/-- … and rows of the edge sums. -/
theorem gather48_eq : Cert.KernelIdeal.gather_S100000x48_S50000x1_S50000x48_1_0_n_n_0_1_148
    = Cert.ReferenceIdeal.gather_S100000x48_S50000x1_S50000x48_1_0_n_n_0_1_148 := rfl

/-- … and scatter-add the edge features with the same dimension numbers. -/
theorem scatter_eq : Cert.KernelIdeal.scatter_S100000x48_S1600000x1_S1600000x48_1_0_0_1
    = Cert.ReferenceIdeal.scatter_S100000x48_S1600000x1_S1600000x48_1_0_0_1 := rfl

section

open Cert.KernelIdeal Cert.KernelIdeal.Gen

variable (m : (ℓ : Loc nD τ sig) → Buf (Elt Ideal) ℓ)

/-- The gathered rows of x the region finds are the reference's gathered rows of x, of the same arguments. -/
theorem gx_eq (c : Dev nD) : (V m c main_v12 : S50000x64.Idx → EReal)
    = Cert.ReferenceIdeal.Read.val_main_v11 (F := Ideal) (m ((c : Thread nD τ).loc main_arg0) : S100000x64.Idx → Elt Ideal .f32) (m ((c : Thread nD τ).loc main_arg5) : S50000.Idx → Elt Ideal .i32) := by
  rw [Cert.KernelIdeal.Entry.V_gx]
  refine (truncf_id (φ := .f32) (ψ := .bf16) _ bitsLt_bf16_f32).trans ?_
  unfold Cert.ReferenceIdeal.Read.val_main_v11 Cert.ReferenceIdeal.Read.val_main_v10 Cert.ReferenceIdeal.Read.val_main_v9 Cert.ReferenceIdeal.Read.val_main_v6 Cert.ReferenceIdeal.Read.val_main_v8 Cert.ReferenceIdeal.Read.val_main_v5 Cert.ReferenceIdeal.Read.val_main_v7 Cert.ReferenceIdeal.Read.val_main_c Cert.ReferenceIdeal.Read.val_main_c_0
  rw [← gather64_eq]

/-- The gathered rows of the scatter-added edge features the region finds are the reference's. -/
theorem ga_eq (c : Dev nD) : (V m c main_v20 : S50000x48.Idx → EReal)
    = Cert.ReferenceIdeal.Read.val_main_v18 (F := Ideal) (m ((c : Thread nD τ).loc main_arg3) : S2x1600000.Idx → Elt Ideal .i32) (m ((c : Thread nD τ).loc main_arg4) : S1600000x48.Idx → Elt Ideal .f32) (m ((c : Thread nD τ).loc main_arg5) : S50000.Idx → Elt Ideal .i32) := by
  rw [Cert.KernelIdeal.Entry.V_ga]
  refine (truncf_id (φ := .f32) (ψ := .bf16) _ bitsLt_bf16_f32).trans ?_
  unfold Cert.ReferenceIdeal.Read.val_main_v18 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_cst Cert.ReferenceIdeal.Read.val_main_v17 Cert.ReferenceIdeal.Read.val_main_v16 Cert.ReferenceIdeal.Read.val_main_v13 Cert.ReferenceIdeal.Read.val_main_v15 Cert.ReferenceIdeal.Read.val_main_v12 Cert.ReferenceIdeal.Read.val_main_v14 Cert.ReferenceIdeal.Read.val_main_c_1 Cert.ReferenceIdeal.Read.val_main_c_2
  rw [← gather48_eq, ← scatter_eq]

end

end Cert.Shared

end
-- ==== Proof.lean ====
/-
  The kernel and the reference compute one function of the arguments over the extended reals.

  Both programs scatter-add the edge features by source node and gather, for every agent, a row of x and a row of those
  sums; these shared host operations are carried along as they are. The reference then joins the two gathered rows with the
  agent's own two feature rows and applies Linear(208, 256), a cut below at zero and Linear(256, 64). The kernel stages
  blocks of 2000 agents and applies the first layer as four partial products with the matching stretches of rows of W1,
  added in the order of the join. A sum over the 208 joined features is the sum of its four stretches, a change of float
  format is the identity, and a product into a zero accumulator is the plain sum of products: so both results are the
  perceptron `Cert.Mlp.out` of the same arrays. Only the grouping of sums changes, so finiteness of the inputs is not used.
  The frames are the generated ones (the reference's is its generated run with the result dropped), and the ideal pass
  rewrote nothing, so there is nothing to preserve.
-/
import proofs.«112574_j50242527429374_2_alg».proof.Defs
import proofs.«112574_j50242527429374_2_alg».proof.Proof.Gen.Kernel
import proofs.«112574_j50242527429374_2_alg».proof.Proof.Gen.Kernel.Skeleton
import proofs.«112574_j50242527429374_2_alg».proof.Proof.Gen.Kernel.Launch
import proofs.«112574_j50242527429374_2_alg».proof.Proof.Gen.Kernel.Points
import proofs.«112574_j50242527429374_2_alg».proof.Proof.Gen.Kernel.Frame
import proofs.«112574_j50242527429374_2_alg».proof.Proof.Gen.KernelIdeal
import proofs.«112574_j50242527429374_2_alg».proof.Proof.Gen.KernelIdeal.Skeleton
import proofs.«112574_j50242527429374_2_alg».proof.Proof.Gen.KernelIdeal.Launch
import proofs.«112574_j50242527429374_2_alg».proof.Proof.Gen.KernelIdeal.Points
import proofs.«112574_j50242527429374_2_alg».proof.Proof.Gen.KernelIdeal.Frame
import proofs.«112574_j50242527429374_2_alg».proof.Proof.Gen.ReferenceIdeal
import proofs.«112574_j50242527429374_2_alg».proof.Proof.Gen.Pre_finite_inputs
import proofs.«112574_j50242527429374_2_alg».proof.Proof.Gen.KernelIdeal.Value
import proofs.«112574_j50242527429374_2_alg».proof.Proof.Gen.ReferenceIdeal.Run
import proofs.«112574_j50242527429374_2_alg».proof.Proof.Gen.ReferenceIdeal.Read
import proofs.«112574_j50242527429374_2_alg».proof.Proof.KernelEntry
import proofs.«112574_j50242527429374_2_alg».proof.Proof.KernelValue
import proofs.«112574_j50242527429374_2_alg».proof.Proof.RefValue
import proofs.«112574_j50242527429374_2_alg».proof.Proof.SharedGathers
import Idealize.ShloMosaic.Adequacy
import Idealize.ShloMosaic.Init

noncomputable section

namespace Cert.Proof

open Idealize.ShloMosaic Idealize.ShloMosaic.TcCoe Idealize.SL.Sem

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the perceptron of the arrays its region finds (the blocks written back tile it); the
    reference's result is the perceptron of its gathered and own rows; the gathers are the same terms and the own rows
    reach the region as launched. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v28_eq, Cert.ReferenceIdeal.RefValue.result_is_mlp, a0, a1, a2, a3, a4, a5, a6, a7, a8, a9]
  show _ = Cert.Mlp.out _ _ _ _ _ _ _ _
  rw [Cert.Shared.gx_eq m c, Cert.Shared.ga_eq m c, Cert.KernelIdeal.Gen.V_main_arg1 m c, Cert.KernelIdeal.Gen.V_main_arg2 m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
